-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x2048x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S4x16x2048x64, .f32⟩
  | .hbm, ⟨5, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  bitsLt_bf16_f32 : FTy.bits .bf16 < FTy.bits .f32
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x1x2048x2048.size a
  hwx0_3 : ∀ i : grid0.Coords, EltTy.bits .i32 = 32 ∨ (Rect.block (s := S4x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S_, .i32⟩
  | .hbm, ⟨10, _⟩ => ⟨S4x1x2048x2048, .i32⟩
  | .hbm, ⟨11, _⟩ => ⟨S4x1x2048x2048, .i1⟩
  | .hbm, ⟨12, _⟩ => ⟨S_, .f32⟩
  | .hbm, ⟨13, _⟩ => ⟨S_, .f32⟩
  | .hbm, ⟨14, _⟩ => ⟨S4x16x2048x2048, .i1⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  The specification: scaled dot-product attention with an additive-style mask fill, as ONE function per output of the
  four argument arrays, index by index over the extended reals.

  For batch `b`, head `h` and query position `q`, the row of scores over key positions `k` is
  `s k = (sum over d of Q[b,h,q,d] * K[b,h,k,d]) * (1/8)`, replaced by the fill `-1e8` where `mask[b,0,q,k] = 1`.
  The attention weights are the softmax of that row: with `mx` the maximum of the row (taken from `-inf`),
  `p k = exp (s k - mx) / (sum over k' of exp (s k' - mx))`. The output is `out[b,h,q,d] = sum over k of p k * V[b,h,k,d]`.

  The row-level functions (`rowMax`, `expRow`, `softmaxRow`, `maskScale`) take a row as a function of the key
  position, so the same definitions read a row of the whole arrays (`score`) and a row of one grid point's blocks
  (`blkScore`): a block computes rows of the array, nothing else.
-/
import Idealize.ShloMosaic.PureOps.Ideal
import Idealize.ShloMosaic.Lib.ValueIdx

noncomputable section

namespace Cert.Attn

open Idealize.ShloMosaic Idealize.ShloMosaic.ValueIdx

/-- The maximum of a row of 2048 scores, taken from the word of `-inf`. -/
def rowMax (s : Fin 2048 → EReal) : EReal :=
  (Finset.univ : Finset (Fin 2048)).fold max (Ideal.ofBits .f32 0xFF800000#32) s

/-- A row's shifted exponentials: `exp (s k - max of the row)`. -/
def expRow (s : Fin 2048 → EReal) (k : Fin 2048) : EReal := Ideal.exp (s k - rowMax s)

/-- The softmax of a row: each shifted exponential over their sum. -/
def softmaxRow (s : Fin 2048 → EReal) (k : Fin 2048) : EReal :=
  Ideal.div (expRow s k) (∑ k' : Fin 2048, expRow s k')

/-- One score from its dot product `x` and its mask word `w`: the fill `-1e8` where the word is 1, else `x / 8`. -/
def maskScale (w : BitVec 32) (x : EReal) : EReal :=
  Scalar.select (IntOp.cmpi .eq w 1#32) (Ideal.ofBits .f32 0xCCBEBC20#32) (x * Ideal.ofBits .f32 0x3E000000#32)

/-- The row of scores of query `q` of head `h` of batch `b`, from the whole arrays. -/
def score (Q K : (⟨4, ![4, 16, 2048, 64]⟩ : Shape).Idx → EReal) (M : (⟨4, ![4, 1, 2048, 2048]⟩ : Shape).Idx → BitVec 32)
    (b : Fin 4) (h : Fin 16) (q : Fin 2048) : Fin 2048 → EReal :=
  fun k => maskScale (M (ix4 b (0 : Fin 1) q k)) (∑ d : Fin 64, Q (ix4 b h q d) * K (ix4 b h k d))

/-- The attention weight at `(b, h, q, k)`. -/
def pAt (Q K : (⟨4, ![4, 16, 2048, 64]⟩ : Shape).Idx → EReal) (M : (⟨4, ![4, 1, 2048, 2048]⟩ : Shape).Idx → BitVec 32)
    (b : Fin 4) (h : Fin 16) (q k : Fin 2048) : EReal :=
  softmaxRow (score Q K M b h q) k

/-- The output at `(b, h, q, d)`: the weights of row `(b, h, q)` against column `d` of the values. -/
def oAt (Q K V : (⟨4, ![4, 16, 2048, 64]⟩ : Shape).Idx → EReal) (M : (⟨4, ![4, 1, 2048, 2048]⟩ : Shape).Idx → BitVec 32)
    (b : Fin 4) (h : Fin 16) (q : Fin 2048) (d : Fin 64) : EReal :=
  ∑ k : Fin 2048, pAt Q K M b h q k * V (ix4 b h k d)

/-- The attention-weights array. -/
def Gp (Q K : (⟨4, ![4, 16, 2048, 64]⟩ : Shape).Idx → EReal) (M : (⟨4, ![4, 1, 2048, 2048]⟩ : Shape).Idx → BitVec 32) :
    (⟨4, ![4, 16, 2048, 2048]⟩ : Shape).Idx → EReal :=
  fun i => pAt Q K M (i 0) (i 1) (i 2) (i 3)

/-- The output array. -/
def Go (Q K V : (⟨4, ![4, 16, 2048, 64]⟩ : Shape).Idx → EReal) (M : (⟨4, ![4, 1, 2048, 2048]⟩ : Shape).Idx → BitVec 32) :
    (⟨4, ![4, 16, 2048, 64]⟩ : Shape).Idx → EReal :=
  fun i => oAt Q K V M (i 0) (i 1) (i 2) (i 3)

theorem Gp_ix4 (Q K : (⟨4, ![4, 16, 2048, 64]⟩ : Shape).Idx → EReal) (M : (⟨4, ![4, 1, 2048, 2048]⟩ : Shape).Idx → BitVec 32)
    (b : Fin 4) (h : Fin 16) (q k : Fin 2048) : Gp Q K M (ix4 b h q k) = pAt Q K M b h q k := rfl

theorem Go_ix4 (Q K V : (⟨4, ![4, 16, 2048, 64]⟩ : Shape).Idx → EReal) (M : (⟨4, ![4, 1, 2048, 2048]⟩ : Shape).Idx → BitVec 32)
    (b : Fin 4) (h : Fin 16) (q : Fin 2048) (d : Fin 64) : Go Q K V M (ix4 b h q d) = oAt Q K V M b h q d := rfl

/-- The row of scores of row `r` of one grid point's blocks: a query block of 512 rows, the head's whole key block, and
    the mask block of those 512 query rows. -/
def blkScore (q : (⟨4, ![1, 1, 512, 64]⟩ : Shape).Idx → EReal) (k : (⟨4, ![1, 1, 2048, 64]⟩ : Shape).Idx → EReal)
    (mk : (⟨4, ![1, 1, 512, 2048]⟩ : Shape).Idx → BitVec 32) (r : Fin 512) : Fin 2048 → EReal :=
  fun j => maskScale (mk (ix4 (0 : Fin 1) (0 : Fin 1) r j))
    (∑ d : Fin 64, q (ix4 (0 : Fin 1) (0 : Fin 1) r d) * k (ix4 (0 : Fin 1) (0 : Fin 1) j d))

end Cert.Attn

end
-- ==== Proof.LibLaneMax.lean ====
/-
  A lane maximum read at a row.

  A kernel body takes the maximum of an `a × K` block along its second axis (`vector.multi_reduction <maximumf>` over
  axis 1, from the word of `-inf`) to get one number per row. At the ideal instance the result at row `r` is the fold of
  `max`, from the value the accumulator's word denotes, over `src[r, k]` with `k` over `Fin K`: the reduction's index set
  over a result index is the dropped axis's coordinates, and `max` on the extended reals commutes and associates, so the
  order of the fold does not matter.
-/
import Idealize.ShloMosaic.Lib.ValueIdx
import Idealize.ShloMosaic.PureOps.Ideal.Laws

noncomputable section

namespace Cert.LibLaneMax

open Idealize.ShloMosaic Idealize.ShloMosaic.ValueIdx

/-- Over row `r` of the result, the source index with coordinate `k` on the dropped second axis is `(r, k)`. -/
theorem lift_row {a K : ℕ} (h : (⟨2, ![a, K]⟩ : Shape).Reduces [1] ⟨1, ![a]⟩) (r : Fin a) (k : Fin K) :
    h.lift (ix1 r) k = ix2 r k :=
  funext fun c => Fin.ext (by
    match c with
    | ⟨0, _⟩ => rfl
    | ⟨1, _⟩ => rfl)

/-- A maximum along the second axis of an `a × K` block, read at row `r`, is the fold of `max` over `src[r, k]` from the
    accumulator's value. The accumulator word and the two side proofs are variables, so the lemma applies to the printed
    term whatever proofs it carries. -/
theorem laneMax_apply {a K : ℕ} {φ : FTy} (src : FVec Ideal (⟨2, ![a, K]⟩ : Shape) φ) (acc : BitVec φ.bits)
    (h : (⟨2, ![a, K]⟩ : Shape).Reduces [1] ⟨1, ![a]⟩) (hφ : FKind.Formats φ) (hacc : acc = FKind.maximumf.neutral φ hφ)
    (r : Fin a) :
    multiReduction (F := Ideal) .maximumf [1] ⟨1, ![a]⟩ src acc h hφ hacc (ix1 r)
      = (Finset.univ : Finset (Fin K)).fold max (Ideal.ofBits φ acc) (fun k => src (ix2 r k)) :=
  (Ideal.multiReduction_maximumf_single src acc h hφ hacc (ix1 r)).trans
    (congrArg (fun f : Fin K → EReal => (Finset.univ : Finset (Fin K)).fold max (Ideal.ofBits φ acc) f)
      (funext fun k => congrArg src (lift_row h r k)))

end Cert.LibLaneMax

end
-- ==== Proof.LibLaneSum.lean ====
/-
  A lane sum read at a row.

  A kernel body sums an `a × K` block along its second axis (`vector.multi_reduction <add>` over axis 1, from the
  zero word) to get one number per row. At the ideal instance the result at row `r` is `Σ_k src[r, k]` with `k`
  over `Fin K`: the reduction's index set over a result index is the dropped axis's coordinates, and the
  accumulator's bit pattern (the sum's neutral element) does not enter the ideal sum.
-/
import Idealize.ShloMosaic.Lib.ValueIdx
import Idealize.ShloMosaic.PureOps.Ideal.Laws

noncomputable section

namespace Cert.LibLaneSum

open Idealize.ShloMosaic Idealize.ShloMosaic.ValueIdx
open scoped BigOperators

/-- Over row `r` of the result, the source index with coordinate `k` on the dropped second axis is `(r, k)`. -/
theorem lift_row {a K : ℕ} (h : (⟨2, ![a, K]⟩ : Shape).Reduces [1] ⟨1, ![a]⟩) (r : Fin a) (k : Fin K) :
    h.lift (ix1 r) k = ix2 r k :=
  funext fun c => Fin.ext (by
    match c with
    | ⟨0, _⟩ => rfl
    | ⟨1, _⟩ => rfl)

/-- A sum along the second axis of an `a × K` block, read at row `r`, is `Σ_k src[r, k]`. The accumulator word and
    the two side proofs are variables, so the lemma applies to the printed term whatever proofs it carries. -/
theorem laneSum_apply {a K : ℕ} {φ : FTy} (src : FVec Ideal (⟨2, ![a, K]⟩ : Shape) φ) (acc : BitVec φ.bits)
    (h : (⟨2, ![a, K]⟩ : Shape).Reduces [1] ⟨1, ![a]⟩) (hφ : FKind.Formats φ) (hacc : acc = FKind.add.neutral φ hφ)
    (r : Fin a) :
    multiReduction (F := Ideal) .add [1] ⟨1, ![a]⟩ src acc h hφ hacc (ix1 r) = ∑ k : Fin K, src (ix2 r k) :=
  (Ideal.multiReduction_add_single src acc h hφ hacc (ix1 r)).trans
    (Finset.sum_congr rfl fun k _ => congrArg src (lift_row h r k))

end Cert.LibLaneSum
-- ==== Proof.LibColumn.lean ====
/-
  A per-row scalar held as an n x 1 column, read at an entry.

  A tiled program keeps one scalar per row of an n x h matrix (a degree normaliser, a reciprocal degree) as an
  n x 1 column. Spread across the row — as a kernel body does with a broadcast, or the host with a
  broadcast-in-dimension along both axes — entry (p, q) is the column's entry (p, 0). The column itself is the
  length-n vector recast to n x 1 (a reshape, or a broadcast-in-dimension along axis 0): entry (p, 0) is the
  vector's entry p.
-/
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

/-- Kernel form: an `[n, 1]` column broadcast to `[n, h]` reads, at `(p, q)`, the column at `(p, 0)`. -/
theorem broadcastTo_col_apply {n h : ℕ} (v : (⟨2, ![n, 1]⟩ : Shape).Idx → α)
    (hb : (⟨2, ![n, 1]⟩ : Shape).Broadcasts ⟨2, ![n, h]⟩) (p : Fin n) (q : Fin h) :
    broadcastTo ⟨2, ![n, h]⟩ v hb (ix2 p q) = v (ix2 p 0) :=
  broadcastTo_apply v hb (ix2 p q) (ix2 p (0 : Fin 1)) (fun a => by
    match a with
    | ⟨0, _⟩ =>
      show p.val = if n = 1 then 0 else p.val
      split_ifs with hn
      · have := p.isLt; omega
      · rfl
    | ⟨1, _⟩ => rfl)

/-- Host form: an `[n, 1]` column broadcast in dimension (axes 0 and 1) to `[n, h]` reads, at `(p, q)`, the column at
    `(p, 0)`. -/
theorem broadcastInDim_col_apply {n h : ℕ} (v : (⟨2, ![n, 1]⟩ : Shape).Idx → α)
    (hb : (⟨2, ![n, 1]⟩ : Shape).BroadcastsInDim ⟨2, ![n, h]⟩ ![0, 1]) (p : Fin n) (q : Fin h) :
    broadcastInDim ⟨2, ![n, h]⟩ ![0, 1] hb v (ix2 p q) = v (ix2 p 0) :=
  broadcastInDim_apply _ hb v (ix2 p q) (ix2 p (0 : Fin 1)) (fun a => by
    match a with
    | ⟨0, _⟩ =>
      show p.val = if n = 1 then 0 else p.val
      split_ifs with hn
      · have := p.isLt; omega
      · rfl
    | ⟨1, _⟩ => rfl)

/-- A length-`n` vector recast to the `[n, 1]` column reads, at `(p, 0)`, the vector at `p`. -/
theorem shapeCast_col_apply {n : ℕ} (v : (⟨1, ![n]⟩ : Shape).Idx → α)
    (hc : (⟨1, ![n]⟩ : Shape).ShapeCasts ⟨2, ![n, 1]⟩) (p : Fin n) :
    shapeCast ⟨2, ![n, 1]⟩ v hc (ix2 p 0) = v (ix1 p) := by
  refine shapeCast_apply v hc _ _ ?_
  rw [Shape.rowMajor_val_two, Shape.rowMajor_val_one]
  show p.val = p.val * 1 + 0
  omega

/-- A length-`n` vector broadcast in dimension (along axis 0) to the `[n, 1]` column reads, at `(p, 0)`, the vector at `p`. -/
theorem broadcastInDim_vec_col_apply {n : ℕ} (v : (⟨1, ![n]⟩ : Shape).Idx → α)
    (hb : (⟨1, ![n]⟩ : Shape).BroadcastsInDim ⟨2, ![n, 1]⟩ ![0]) (p : Fin n) :
    broadcastInDim ⟨2, ![n, 1]⟩ ![0] hb v (ix2 p 0) = v (ix1 p) :=
  broadcastInDim_apply _ hb v (ix2 p (0 : Fin 1)) (ix1 p) (fun a => by
    match a with
    | ⟨0, _⟩ =>
      show p.val = if n = 1 then 0 else p.val
      split_ifs with hn
      · have := p.isLt; omega
      · rfl)

/-- A length-`h` vector recast to the `[1, h]` row reads, at `(0, q)`, the vector at `q`. -/
theorem shapeCast_row_apply {h : ℕ} (v : (⟨1, ![h]⟩ : Shape).Idx → α)
    (hc : (⟨1, ![h]⟩ : Shape).ShapeCasts ⟨2, ![1, h]⟩) (q : Fin h) :
    shapeCast ⟨2, ![1, h]⟩ v hc (ix2 0 q) = v (ix1 q) := by
  refine shapeCast_apply v hc _ _ ?_
  rw [Shape.rowMajor_val_two, Shape.rowMajor_val_one]
  show q.val = 0 * h + q.val
  omega

/-- Kernel form: a `[1, h]` row broadcast to `[n, h]` reads, at `(p, q)`, the row at `(0, q)`. -/
theorem broadcastTo_row_apply {n h : ℕ} (v : (⟨2, ![1, h]⟩ : Shape).Idx → α)
    (hb : (⟨2, ![1, h]⟩ : Shape).Broadcasts ⟨2, ![n, h]⟩) (p : Fin n) (q : Fin h) :
    broadcastTo ⟨2, ![n, h]⟩ v hb (ix2 p q) = v (ix2 0 q) :=
  broadcastTo_apply v hb (ix2 p q) (ix2 (0 : Fin 1) q) (fun a => by
    match a with
    | ⟨0, _⟩ => rfl
    | ⟨1, _⟩ =>
      show q.val = if h = 1 then 0 else q.val
      split_ifs with hh
      · have := q.isLt; omega
      · rfl)

end Cert.LibColumn

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibMatmulRowsRows.lean ====
/-
  A matrix product of the "rows by rows" form, read at an entry.

  A record that contracts the second axis of BOTH operands and has no batch axis describes the product of an
  `a × K` array by the transpose of a `b × K` array: entry `(p, q)` pairs row `p` of the left operand with
  row `q` of the right one. At the ideal instance the product accumulated into an all-zero block has, at entry
  `(p, q)`, the value `Σ_k lhs[p, k] · rhs[q, k]` with `k` over `Fin K`: the accumulator's zero is the additive
  identity, and the record's contraction index set is `Fin K`. The record is a variable here, so one proof serves
  every product of this form in a program.
-/
import Idealize.ShloMosaic.Lib.ValueIdx
import Idealize.ShloMosaic.PureOps.Ideal.Laws

noncomputable section

namespace Idealize.ShloMosaic.MatmulRowsRows

open Idealize.ShloMosaic Idealize.ShloMosaic.ValueIdx
open scoped BigOperators

variable {a K b : ℕ} (D : DotDims (⟨2, ![a, K]⟩ : Shape) (⟨2, ![b, K]⟩ : Shape) (⟨2, ![a, b]⟩ : Shape))

/-- "Rows by rows": the second axis of each operand is contracted with the other's, each operand's first axis
    survives (the left one's first, then the right one's), and there is no batch axis. -/
structure RowsByRows : Prop where
  lc : D.lhsContracting = [1]
  rc : D.rhsContracting = [1]
  ln : D.lhsNonContracting = [0]
  rn : D.rhsNonContracting = [0]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the row the result's first coordinate names. -/
theorem lhsIdx_row (h : RowsByRows D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the row the result's second coordinate names. -/
theorem rhsIdx_row (h : RowsByRows D) (j : (⟨2, ![a, b]⟩ : Shape).Idx) (κ : D.contr.Idx) :
    (D.rhsIdx j κ 0).val = (j 1).val := by
  have hb : (0 : Fin (⟨2, ![b, K]⟩ : Shape).rank) ∉ D.rhsBatch := by rw [h.rb]; exact List.not_mem_nil
  have hn : (0 : Fin (⟨2, ![b, K]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[q, k]`. -/
theorem matmul_zero_rows_ix2 (h : RowsByRows D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![b, K]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 q k := funext fun ax => Fin.ext (by
    match ax with
    | ⟨0, _⟩ => exact rhsIdx_row h _ _
    | ⟨1, _⟩ => exact (D.rhsIdx_val_of_single h.rc _ _).trans hk)
  rw [el, er]

end Idealize.ShloMosaic.MatmulRowsRows
-- ==== Proof.Payload.lean ====
/-
  The kernel body's two payloads read at an entry.

  At one grid point the body holds a query block `q` (512 rows of 64), the head's key block `k` and value block `v`
  (2048 rows of 64 each) and the mask block of the 512 query rows (512 × 2048 words), all with two leading unit axes.
  It forms the 512 × 2048 block of scores — row `r` of `q` against row `j` of `k`, summed over the 64 columns (a matrix
  product contracting BOTH operands' second axis, into a zero block), times `0.125`, replaced by the fill where the mask
  word is 1 —, takes each row's maximum (a lane maximum from `-inf`, kept as a column and spread back over the row),
  exponentiates the differences, sums each row (a lane sum from zero, again kept as a column and spread), and divides:
  entry `(r, j)` of the weights block is the softmax of row `r` of the scores at `j` (`pay3_apply`). The output block is
  the weights block times the value block (rows by columns, into a zero block): entry `(r, d)` is the sum over `j` of
  the weights at `(r, j)` times `v` at `(j, d)` (`pay1_apply`). Changes of float format are the identity on extended reals.
-/
import proofs.«155722_j52982716563497_2_alg».proof.Proof.Gen.KernelIdeal.Skeleton
import proofs.«155722_j52982716563497_2_alg».proof.Proof.Spec
import proofs.«155722_j52982716563497_2_alg».proof.Proof.LibLaneMax
import proofs.«155722_j52982716563497_2_alg».proof.Proof.LibLaneSum
import proofs.«155722_j52982716563497_2_alg».proof.Proof.LibColumn
import proofs.«155722_j52982716563497_2_alg».proof.Proof.LibMatmulRead
import proofs.«155722_j52982716563497_2_alg».proof.Proof.LibMatmulRowsRows
import Idealize.ShloMosaic.Lib.Pipeline.Value
import Idealize.ShloMosaic.Lib.ValueIdx
import Idealize.ShloMosaic.PureOps.Ideal.Laws

noncomputable section

namespace Cert.Attn.Payload

open Idealize.ShloMosaic Idealize.ShloMosaic.ValueIdx Cert.Attn
open scoped BigOperators

/-! ## Casts that drop or add two leading unit axes, and a per-row value kept as a column -/

section Layout
variable {α : Type}

/-- An array `[1, 1, a, b]` recast to `[a, b]` reads, at `(r, j)`, the array at `(0, 0, r, j)`. -/
theorem cast_drop2_apply {a b : ℕ} (v : (⟨4, ![1, 1, a, b]⟩ : Shape).Idx → α)
    (hc : (⟨4, ![1, 1, a, b]⟩ : Shape).ShapeCasts ⟨2, ![a, b]⟩) (r : Fin a) (j : Fin b) :
    shapeCast ⟨2, ![a, b]⟩ v hc (ix2 r j) = v (ix4 (0 : Fin 1) (0 : Fin 1) r j) := by
  refine shapeCast_apply v hc _ _ ?_
  rw [Shape.rowMajor_val_four, Shape.rowMajor_val_two]
  show ((0 * 1 + 0) * a + r.val) * b + j.val = r.val * b + j.val
  simp

/-- An array `[a, b]` recast to `[1, 1, a, b]` reads, at `(0, 0, r, j)`, the array at `(r, j)`. -/
theorem cast_add2_apply {a b : ℕ} (v : (⟨2, ![a, b]⟩ : Shape).Idx → α)
    (hc : (⟨2, ![a, b]⟩ : Shape).ShapeCasts ⟨4, ![1, 1, a, b]⟩) (r : Fin a) (j : Fin b) :
    shapeCast ⟨4, ![1, 1, a, b]⟩ v hc (ix4 (0 : Fin 1) (0 : Fin 1) r j) = v (ix2 r j) := by
  refine shapeCast_apply v hc _ _ ?_
  rw [Shape.rowMajor_val_four, Shape.rowMajor_val_two]
  show r.val * b + j.val = ((0 * 1 + 0) * a + r.val) * b + j.val
  simp

/-- One value per row, kept as an `[a, 1]` column and spread over the `K` entries of the row, reads at `(r, j)` the
    value of row `r`. -/
theorem keepdims_apply {a K : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, K]⟩) (r : Fin a) (j : Fin K) :
    broadcastTo ⟨2, ![a, K]⟩ (shapeCast ⟨2, ![a, 1]⟩ v hc) hb (ix2 r j) = v (ix1 r) := by
  rw [Cert.LibColumn.broadcastTo_col_apply, Cert.LibColumn.shapeCast_col_apply]

end Layout

/-! ## The softmax of a block of scores, row by row -/

/-- The body's softmax of a 512 × 2048 block `x`, as it writes it: the row maxima as a column spread back, the
    exponentials of the differences, the row sums as a column spread back, the quotient. -/
def softmaxBlk (x : FVec Ideal (⟨2, ![512, 2048]⟩ : Shape) .f32)
    (hred : (⟨2, ![512, 2048]⟩ : Shape).Reduces [1] ⟨1, ![512]⟩) (hφ : FKind.Formats .f32)
    (hmax : (0xFF800000#32 : BitVec 32) = FKind.maximumf.neutral .f32 hφ)
    (hadd : (0x00000000#32 : BitVec 32) = FKind.add.neutral .f32 hφ)
    (hc : (⟨1, ![512]⟩ : Shape).ShapeCasts ⟨2, ![512, 1]⟩)
    (hb : (⟨2, ![512, 1]⟩ : Shape).Broadcasts ⟨2, ![512, 2048]⟩) : FVec Ideal (⟨2, ![512, 2048]⟩ : Shape) .f32 :=
  divf
    (exp (subf x (broadcastTo ⟨2, ![512, 2048]⟩ (shapeCast ⟨2, ![512, 1]⟩
      (multiReduction .maximumf [1] ⟨1, ![512]⟩ x 0xFF800000#32 hred hφ hmax) hc) hb)))
    (broadcastTo ⟨2, ![512, 2048]⟩ (shapeCast ⟨2, ![512, 1]⟩
      (multiReduction .add [1] ⟨1, ![512]⟩
        (exp (subf x (broadcastTo ⟨2, ![512, 2048]⟩ (shapeCast ⟨2, ![512, 1]⟩
          (multiReduction .maximumf [1] ⟨1, ![512]⟩ x 0xFF800000#32 hred hφ hmax) hc) hb)))
        0x00000000#32 hred hφ hadd) hc) hb)

/-- Entry `(r, j)` of the block's softmax is the softmax of row `r` at `j`. -/
theorem softmaxBlk_apply (x : FVec Ideal (⟨2, ![512, 2048]⟩ : Shape) .f32)
    (hred : (⟨2, ![512, 2048]⟩ : Shape).Reduces [1] ⟨1, ![512]⟩) (hφ : FKind.Formats .f32)
    (hmax : (0xFF800000#32 : BitVec 32) = FKind.maximumf.neutral .f32 hφ)
    (hadd : (0x00000000#32 : BitVec 32) = FKind.add.neutral .f32 hφ)
    (hc : (⟨1, ![512]⟩ : Shape).ShapeCasts ⟨2, ![512, 1]⟩)
    (hb : (⟨2, ![512, 1]⟩ : Shape).Broadcasts ⟨2, ![512, 2048]⟩) (r : Fin 512) (j : Fin 2048) :
    softmaxBlk x hred hφ hmax hadd hc hb (ix2 r j) = softmaxRow (fun k => x (ix2 r k)) j := by
  -- the spread row maximum, anywhere in row r, is the row's maximum
  have hmx : ∀ k : Fin 2048,
      broadcastTo ⟨2, ![512, 2048]⟩ (shapeCast ⟨2, ![512, 1]⟩
        (multiReduction .maximumf [1] ⟨1, ![512]⟩ x 0xFF800000#32 hred hφ hmax) hc) hb (ix2 r k)
        = rowMax (fun k => x (ix2 r k)) := fun k =>
    (keepdims_apply _ hc hb r k).trans (Cert.LibLaneMax.laneMax_apply x _ hred hφ hmax r)
  -- so the exponentials of the differences are the row's shifted exponentials
  have hex : ∀ k : Fin 2048,
      exp (subf x (broadcastTo ⟨2, ![512, 2048]⟩ (shapeCast ⟨2, ![512, 1]⟩
        (multiReduction .maximumf [1] ⟨1, ![512]⟩ x 0xFF800000#32 hred hφ hmax) hc) hb)) (ix2 r k)
        = expRow (fun k => x (ix2 r k)) k := fun k => by
    show Ideal.exp (x (ix2 r k) - broadcastTo ⟨2, ![512, 2048]⟩ (shapeCast ⟨2, ![512, 1]⟩
        (multiReduction .maximumf [1] ⟨1, ![512]⟩ x 0xFF800000#32 hred hφ hmax) hc) hb (ix2 r k))
      = Ideal.exp (x (ix2 r k) - rowMax (fun k => x (ix2 r k)))
    rw [hmx k]
  show Ideal.div
      (exp (subf x (broadcastTo ⟨2, ![512, 2048]⟩ (shapeCast ⟨2, ![512, 1]⟩
        (multiReduction .maximumf [1] ⟨1, ![512]⟩ x 0xFF800000#32 hred hφ hmax) hc) hb)) (ix2 r j))
      (broadcastTo ⟨2, ![512, 2048]⟩ (shapeCast ⟨2, ![512, 1]⟩
        (multiReduction .add [1] ⟨1, ![512]⟩
          (exp (subf x (broadcastTo ⟨2, ![512, 2048]⟩ (shapeCast ⟨2, ![512, 1]⟩
            (multiReduction .maximumf [1] ⟨1, ![512]⟩ x 0xFF800000#32 hred hφ hmax) hc) hb)))
          0x00000000#32 hred hφ hadd) hc) hb (ix2 r j))
    = Ideal.div (expRow (fun k => x (ix2 r k)) j) (∑ k' : Fin 2048, expRow (fun k => x (ix2 r k)) k')
  rw [hex j, keepdims_apply, Cert.LibLaneSum.laneSum_apply]
  exact congrArg (Ideal.div (expRow (fun k => x (ix2 r k)) j)) (Finset.sum_congr rfl fun k _ => hex k)

/-! ## The printed payloads -/

open Cert.KernelIdeal Cert.KernelIdeal.Gen

/-- The block of masked, scaled scores as the body writes it, from the three loaded blocks. -/
def scoresBlk (P0 : Vec Ideal S1x1x512x64 .f32) (P1 : Vec Ideal S1x1x2048x64 .f32) (P3 : Vec Ideal S1x1x512x2048 .i32) :
    FVec Ideal S512x2048 .f32 :=
  select (cmpi .eq (shapeCast S512x2048 P3 shapeCasts_S1x1x512x2048_S512x2048) (broadcast S512x2048 1#32))
    (broadcast S512x2048 (Scalar.ofBits .f32 0xCCBEBC20#32))
    (mulf (matmul dot_S512x64_S2048x64_S512x2048_1_1_0_0_n_n none
        (truncf .bf16 (shapeCast S512x64 P0 shapeCasts_S1x1x512x64_S512x64) bitsLt_bf16_f32)
        (truncf .bf16 (shapeCast S2048x64 P1 shapeCasts_S1x1x2048x64_S2048x64) bitsLt_bf16_f32)
        (constant S512x2048 .f32 0x00000000#32))
      (broadcast S512x2048 (Scalar.ofBits .f32 0x3E000000#32)))

/-- Entry `(r, k)` of the scores block is the block's score of row `r` at key `k`. -/
theorem scores_apply (P0 : Vec Ideal S1x1x512x64 .f32) (P1 : Vec Ideal S1x1x2048x64 .f32) (P3 : Vec Ideal S1x1x512x2048 .i32)
    (r : Fin 512) (k : Fin 2048) : scoresBlk P0 P1 P3 (ix2 r k) = blkScore P0 P1 P3 r k := by
  show Scalar.select (IntOp.cmpi .eq (shapeCast S512x2048 P3 shapeCasts_S1x1x512x2048_S512x2048 (ix2 r k)) 1#32)
      (Ideal.ofBits .f32 0xCCBEBC20#32)
      (FloatOps.matmul dot_S512x64_S2048x64_S512x2048_1_1_0_0_n_n none
          (truncf .bf16 (shapeCast S512x64 P0 shapeCasts_S1x1x512x64_S512x64) bitsLt_bf16_f32)
          (truncf .bf16 (shapeCast S2048x64 P1 shapeCasts_S1x1x2048x64_S2048x64) bitsLt_bf16_f32)
          (constant S512x2048 .f32 0x00000000#32) (ix2 r k)
        * Ideal.ofBits .f32 0x3E000000#32)
    = maskScale (P3 (ix4 (0 : Fin 1) (0 : Fin 1) r k))
        (∑ d : Fin 64, P0 (ix4 (0 : Fin 1) (0 : Fin 1) r d) * P1 (ix4 (0 : Fin 1) (0 : Fin 1) k d))
  rw [cast_drop2_apply,
    Idealize.ShloMosaic.MatmulRowsRows.matmul_zero_rows_ix2 ⟨rfl, rfl, rfl, rfl, rfl, rfl⟩ rfl rfl]
  unfold maskScale
  refine congrArg (fun s => Scalar.select _ _ (s * _)) (Finset.sum_congr rfl fun d _ => ?_)
  show shapeCast S512x64 P0 shapeCasts_S1x1x512x64_S512x64 (ix2 r d)
      * shapeCast S2048x64 P1 shapeCasts_S1x1x2048x64_S2048x64 (ix2 k d) = _
  rw [cast_drop2_apply, cast_drop2_apply]

/-- THE WEIGHTS BLOCK at `(r, j)`: the softmax of row `r` of the block's scores, at `j`. -/
theorem pay3_apply (P0 : Vec Ideal S1x1x512x64 .f32) (P1 : Vec Ideal S1x1x2048x64 .f32) (P3 : Vec Ideal S1x1x512x2048 .i32)
    (r : Fin 512) (j : Fin 2048) :
    k0_pay3 (F := Ideal) P0 P1 P3 (ix2 r j) = softmaxRow (blkScore P0 P1 P3 r) j := by
  show softmaxBlk (scoresBlk P0 P1 P3) reduces_S512x2048_S512 (.inl rfl) rfl rfl shapeCasts_S512_S512x1
      broadcasts_S512x1_S512x2048 (ix2 r j) = _
  refine (softmaxBlk_apply (scoresBlk P0 P1 P3) reduces_S512x2048_S512 (.inl rfl) rfl rfl shapeCasts_S512_S512x1
    broadcasts_S512x1_S512x2048 r j).trans ?_
  exact congrArg (fun s => softmaxRow s j) (funext fun k => scores_apply P0 P1 P3 r k)

/-- THE OUTPUT BLOCK at `(0, 0, r, d)`: the weights' row `r` against column `d` of the value block. -/
theorem pay1_apply (P2 : Vec Ideal S1x1x2048x64 .f32) (w : FVec Ideal S512x2048 .f32) (r : Fin 512) (d : Fin 64) :
    k0_pay1 (F := Ideal) (k0_pay2 P2) w (ix4 (0 : Fin 1) (0 : Fin 1) r d)
      = ∑ j : Fin 2048, w (ix2 r j) * P2 (ix4 (0 : Fin 1) (0 : Fin 1) j d) := by
  show shapeCast S1x1x512x64
      (FloatOps.matmul dot_S512x2048_S2048x64_S512x64_1_0_0_1_n_n none (truncf .bf16 w bitsLt_bf16_f32)
        (truncf .bf16 (shapeCast S2048x64 P2 shapeCasts_S1x1x2048x64_S2048x64) bitsLt_bf16_f32)
        (constant S512x64 .f32 0x00000000#32))
      shapeCasts_S512x64_S1x1x512x64 (ix4 (0 : Fin 1) (0 : Fin 1) r d) = _
  rw [cast_add2_apply,
    Idealize.ShloMosaic.MatmulRead.matmul_zero_ix2 ⟨rfl, rfl, rfl, rfl, rfl, rfl⟩ rfl rfl]
  refine Finset.sum_congr rfl fun j _ => ?_
  show w (ix2 r j) * shapeCast S2048x64 P2 shapeCasts_S1x1x2048x64_S2048x64 (ix2 j d) = _
  rw [cast_drop2_apply]

end Cert.Attn.Payload

end
-- ==== Proof.Blocks.lean ====
/-
  From the blocks of the grid points to the whole arrays.

  The grid has 4 x 4 x 16 points; the point with coordinates (b, g, e) works on batch b, head e and the g-th group of
  512 consecutive query positions. Its query block is rows 512 g .. 512 g + 511 of head (b, e) of the query array, its
  key and value blocks are the whole head (b, e) of the key and value arrays, its mask block is rows 512 g .. 512 g + 511
  of batch b of the mask, and the two blocks it writes back are rows 512 g .. 512 g + 511 of head (b, e) of the output
  and of the weights. Row r of a block is therefore row 512 g + r of the array, and a row of scores computed from the
  blocks is the row of scores of the whole arrays at (b, e, 512 g + r): what a point writes back is its block of ONE
  function of the argument arrays (the attention weights, resp. the attention output). As (b, e, g) runs over all the
  points these blocks tile the arrays (every position q is in group q / 512), so each array ends holding that function
  everywhere.
-/
import proofs.«155722_j52982716563497_2_alg».proof.Proof.Gen.KernelIdeal.Value
import proofs.«155722_j52982716563497_2_alg».proof.Proof.Spec
import Idealize.ShloMosaic.Lib.Pipeline.Value
import Idealize.ShloMosaic.Lib.ValueIdx

noncomputable section

namespace Cert.Attn.Blocks

open Cert.KernelIdeal Cert.KernelIdeal.Gen Cert.KernelIdeal.Value Idealize.ShloMosaic Idealize.ShloMosaic.TcCoe Idealize.SL.Sem
open Idealize.ShloMosaic.ValueIdx Cert.Attn
open Idealize.ShloMosaic.Pipeline (Dat)

/-- What the body's first payload (the weights block, 512 x 2048) is at an entry: the softmax of the block's row. -/
def Pay3 : Prop := ∀ (P0 : Vec Ideal S1x1x512x64 .f32) (P1 : Vec Ideal S1x1x2048x64 .f32) (P3 : Vec Ideal S1x1x512x2048 .i32) (r : Fin 512) (j : Fin 2048),
    k0_pay3 (F := Ideal) P0 P1 P3 (ix2 r j) = softmaxRow (blkScore P0 P1 P3 r) j

/-- What the body's second payload (the output block) is at an entry: the weights' row against a column of the value block. -/
def Pay1 : Prop := ∀ (P2 : Vec Ideal S1x1x2048x64 .f32) (w : FVec Ideal S512x2048 .f32) (r : Fin 512) (d : Fin 64),
    k0_pay1 (F := Ideal) (k0_pay2 P2) w (ix4 (0 : Fin 1) (0 : Fin 1) r d) = ∑ j : Fin 2048, w (ix2 r j) * P2 (ix4 (0 : Fin 1) (0 : Fin 1) j d)

/-! ## Where each point's blocks sit -/

/-- The zero offsets of a whole-block access. -/
theorem hz : (![0, 0, 0, 0] : Fin 4 → Nat) = fun _ => 0 := funext fun a => by fin_cases a <;> rfl

/-- The weights block of the point numbered n is block (n / 64, n % 16, n / 16 % 4, 0): the points run through
    (batch, query group, head) with the head fastest, and the block index lists (batch, head, query group). -/
theorem idx_weights : ∀ t : Fin cfg0.N, win0_5.index t (0 : Fin 4) = t.val / 64 ∧ win0_5.index t (1 : Fin 4) = t.val % 16
    ∧ win0_5.index t (2 : Fin 4) = t.val / 16 % 4 ∧ win0_5.index t (3 : Fin 4) = 0 :=
  (by decide +kernel : ∀ t : Fin grid0.N, _)

/-- The query block moves with the weights block. -/
theorem idx_query : ∀ t : Fin cfg0.N, win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0 :=
  (by decide +kernel : ∀ t : Fin grid0.N, _)

/-- The key block is the whole head of the weights block's batch and head. -/
theorem idx_key : ∀ t : Fin cfg0.N, win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0 :=
  (by decide +kernel : ∀ t : Fin grid0.N, _)

/-- So is the value block. -/
theorem idx_value : ∀ t : Fin cfg0.N, win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0 :=
  (by decide +kernel : ∀ t : Fin grid0.N, _)

/-- The mask block is the weights block's batch and query group (the mask has one head). -/
theorem idx_mask : ∀ t : Fin cfg0.N, win0_3.index t (0 : Fin 4) = win0_5.index t (0 : Fin 4) ∧ win0_3.index t (1 : Fin 4) = 0
    ∧ win0_3.index t (2 : Fin 4) = win0_5.index t (2 : Fin 4) ∧ win0_3.index t (3 : Fin 4) = 0 :=
  (by decide +kernel : ∀ t : Fin grid0.N, _)

/-- The output block moves with the weights block. -/
theorem idx_out : ∀ t : Fin cfg0.N, win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = win0_5.index t (3 : Fin 4) :=
  (by decide +kernel : ∀ t : Fin grid0.N, _)

/-- A point's batch, head and query group. -/
theorem block_of (t : Fin cfg0.N) : ∃ (b : Fin 4) (e : Fin 16) (g : Fin 4),
    win0_5.index t (0 : Fin 4) = b.val ∧ win0_5.index t (1 : Fin 4) = e.val ∧ win0_5.index t (2 : Fin 4) = g.val ∧ win0_5.index t (3 : Fin 4) = 0 := by
  obtain ⟨e0, e1, e2, e3⟩ := idx_weights t
  have hN : cfg0.N = 256 := N_0
  have ht : t.val < cfg0.N := t.isLt
  exact ⟨⟨t.val / 64, by omega⟩, ⟨t.val % 16, by omega⟩, ⟨t.val / 16 % 4, by omega⟩, e0, e1, e2, e3⟩

/-- Every (batch, head, query group) is some point's: the point numbered 64 b + 16 g + e. -/
theorem point_of (b : Fin 4) (e : Fin 16) (g : Fin 4) : ∃ t : Fin cfg0.N,
    win0_5.index t (0 : Fin 4) = b.val ∧ win0_5.index t (1 : Fin 4) = e.val ∧ win0_5.index t (2 : Fin 4) = g.val ∧ win0_5.index t (3 : Fin 4) = 0 := by
  have hN : cfg0.N = 256 := N_0
  have hn : b.val * 64 + g.val * 16 + e.val < cfg0.N := by omega
  obtain ⟨e0, e1, e2, e3⟩ := idx_weights ⟨b.val * 64 + g.val * 16 + e.val, hn⟩
  refine ⟨⟨b.val * 64 + g.val * 16 + e.val, hn⟩, e0.trans ?_, e1.trans ?_, e2.trans ?_, e3⟩
  · show (b.val * 64 + g.val * 16 + e.val) / 64 = b.val; omega
  · show (b.val * 64 + g.val * 16 + e.val) % 16 = e.val; omega
  · show (b.val * 64 + g.val * 16 + e.val) / 16 % 4 = g.val; omega

/-! ## Reading the blocks off the arrays -/

variable (m : (ℓ : Loc nD τ sig) → Buf (Elt Ideal) ℓ) (ρ : Dev nD → PrngReg)

/-- Row r of the query block of the point of batch b, head e and query group g is row 512 g + r of head (b, e) of the
    query array. -/
theorem read_query (c : Dev nD) (t : Fin cfg0.N) (b : Fin 4) (e : Fin 16) (g : Fin 4)
    (hb : win0_5.index t (0 : Fin 4) = b.val) (he : win0_5.index t (1 : Fin 4) = e.val) (hg : win0_5.index t (2 : Fin 4) = g.val)
    (r : Fin 512) (d : Fin 64) :
    (iblk m c 0 t : Vec Ideal S1x1x512x64 .f32) (ix4 (0 : Fin 1) (0 : Fin 1) r d)
      = V m c main_arg0 (ix4 b e (⟨g.val * 512 + r.val, by omega⟩ : Fin 2048) d) := by
  obtain ⟨e0, e1, e2, e3⟩ := idx_query t
  show V m c main_arg0 (((cfg0.win 0).blk t).view.emb (ix4 (0 : Fin 1) (0 : Fin 1) r d)) = V m c main_arg0 _
  refine congrArg (V m c main_arg0) ?_
  funext a; apply Fin.ext
  match a with
  | ⟨0, _⟩ => show win0_0.index t (0 : Fin 4) * 1 + 1 * 0 = b.val; omega
  | ⟨1, _⟩ => show win0_0.index t (1 : Fin 4) * 1 + 1 * 0 = e.val; omega
  | ⟨2, _⟩ => show win0_0.index t (2 : Fin 4) * 512 + 1 * r.val = g.val * 512 + r.val; omega
  | ⟨3, _⟩ => show win0_0.index t (3 : Fin 4) * 64 + 1 * d.val = d.val; omega

/-- Row k of the key block of the point of batch b and head e is row k of head (b, e) of the key array. -/
theorem read_key (c : Dev nD) (t : Fin cfg0.N) (b : Fin 4) (e : Fin 16)
    (hb : win0_5.index t (0 : Fin 4) = b.val) (he : win0_5.index t (1 : Fin 4) = e.val)
    (k : Fin 2048) (d : Fin 64) :
    (iblk m c 1 t : Vec Ideal S1x1x2048x64 .f32) (ix4 (0 : Fin 1) (0 : Fin 1) k d) = V m c main_arg1 (ix4 b e k d) := by
  obtain ⟨e0, e1, e2, e3⟩ := idx_key t
  show V m c main_arg1 (((cfg0.win 1).blk t).view.emb (ix4 (0 : Fin 1) (0 : Fin 1) k d)) = V m c main_arg1 _
  refine congrArg (V m c main_arg1) ?_
  funext a; apply Fin.ext
  match a with
  | ⟨0, _⟩ => show win0_1.index t (0 : Fin 4) * 1 + 1 * 0 = b.val; omega
  | ⟨1, _⟩ => show win0_1.index t (1 : Fin 4) * 1 + 1 * 0 = e.val; omega
  | ⟨2, _⟩ => show win0_1.index t (2 : Fin 4) * 2048 + 1 * k.val = k.val; omega
  | ⟨3, _⟩ => show win0_1.index t (3 : Fin 4) * 64 + 1 * d.val = d.val; omega

/-- Row k of the value block of the point of batch b and head e is row k of head (b, e) of the value array. -/
theorem read_value (c : Dev nD) (t : Fin cfg0.N) (b : Fin 4) (e : Fin 16)
    (hb : win0_5.index t (0 : Fin 4) = b.val) (he : win0_5.index t (1 : Fin 4) = e.val)
    (k : Fin 2048) (d : Fin 64) :
    (iblk m c 2 t : Vec Ideal S1x1x2048x64 .f32) (ix4 (0 : Fin 1) (0 : Fin 1) k d) = V m c main_arg2 (ix4 b e k d) := by
  obtain ⟨e0, e1, e2, e3⟩ := idx_value t
  show V m c main_arg2 (((cfg0.win 2).blk t).view.emb (ix4 (0 : Fin 1) (0 : Fin 1) k d)) = V m c main_arg2 _
  refine congrArg (V m c main_arg2) ?_
  funext a; apply Fin.ext
  match a with
  | ⟨0, _⟩ => show win0_2.index t (0 : Fin 4) * 1 + 1 * 0 = b.val; omega
  | ⟨1, _⟩ => show win0_2.index t (1 : Fin 4) * 1 + 1 * 0 = e.val; omega
  | ⟨2, _⟩ => show win0_2.index t (2 : Fin 4) * 2048 + 1 * k.val = k.val; omega
  | ⟨3, _⟩ => show win0_2.index t (3 : Fin 4) * 64 + 1 * d.val = d.val; omega

/-- Row r of the mask block of the point of batch b and query group g is row 512 g + r of batch b of the mask. -/
theorem read_mask (c : Dev nD) (t : Fin cfg0.N) (b : Fin 4) (g : Fin 4)
    (hb : win0_5.index t (0 : Fin 4) = b.val) (hg : win0_5.index t (2 : Fin 4) = g.val)
    (r : Fin 512) (k : Fin 2048) :
    (iblk m c 3 t : Vec Ideal S1x1x512x2048 .i32) (ix4 (0 : Fin 1) (0 : Fin 1) r k)
      = V m c main_arg3 (ix4 b (0 : Fin 1) (⟨g.val * 512 + r.val, by omega⟩ : Fin 2048) k) := by
  obtain ⟨e0, e1, e2, e3⟩ := idx_mask t
  show V m c main_arg3 (((cfg0.win 3).blk t).view.emb (ix4 (0 : Fin 1) (0 : Fin 1) r k)) = V m c main_arg3 _
  refine congrArg (V m c main_arg3) ?_
  funext a; apply Fin.ext
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 512 + 1 * r.val = g.val * 512 + r.val; omega
  | ⟨3, _⟩ => show win0_3.index t (3 : Fin 4) * 2048 + 1 * k.val = k.val; omega

/-- A row of scores computed from blocks whose rows are rows of the arrays is the arrays' row of scores. -/
theorem blkScore_eq (P0 : Vec Ideal S1x1x512x64 .f32) (P1 : Vec Ideal S1x1x2048x64 .f32) (P3 : Vec Ideal S1x1x512x2048 .i32)
    (Q K : S4x16x2048x64.Idx → EReal) (M : S4x1x2048x2048.Idx → BitVec 32) (b : Fin 4) (e : Fin 16) (q : Fin 2048) (r : Fin 512)
    (hQ : ∀ d : Fin 64, P0 (ix4 (0 : Fin 1) (0 : Fin 1) r d) = Q (ix4 b e q d))
    (hK : ∀ (k : Fin 2048) (d : Fin 64), P1 (ix4 (0 : Fin 1) (0 : Fin 1) k d) = K (ix4 b e k d))
    (hM : ∀ k : Fin 2048, P3 (ix4 (0 : Fin 1) (0 : Fin 1) r k) = M (ix4 b (0 : Fin 1) q k)) :
    blkScore P0 P1 P3 r = score Q K M b e q := by
  funext k
  unfold blkScore score
  rw [hM k]
  exact congrArg _ (Finset.sum_congr rfl fun d _ => by rw [hQ d, hK k d])

/-! ## What a point writes back -/

/-- The weights block a point leaves, at the entry of row r and column j: the softmax of the blocks' row r, at j. -/
theorem weights_at (h3 : Pay3) (P0 : Vec Ideal S1x1x512x64 .f32) (P1 : Vec Ideal S1x1x2048x64 .f32) (P3 : Vec Ideal S1x1x512x2048 .i32)
    (y : S1x1x512x2048.Idx) (r : Fin 512) (j : Fin 2048) (hr : (y 2).val = r.val) (hj : (y 3).val = j.val) :
    View.canon [(⟨r0_2, k0_pay4 (F := Ideal) P0 P1 P3⟩ : View.Piece (Elt Ideal) S1x1x512x2048 .f32)] y
      = softmaxRow (blkScore P0 P1 P3 r) j := by
  rw [Cert.KernelIdeal.Value.canon5_eq]
  show k0_pay3 (F := Ideal) P0 P1 P3 (Cert.KernelIdeal.Value.ix5_0 y) = _
  rw [← h3 P0 P1 P3 r j]
  refine congrArg (k0_pay3 (F := Ideal) P0 P1 P3) ?_
  funext a; apply Fin.ext
  match a with
  | ⟨0, _⟩ => exact hr
  | ⟨1, _⟩ => exact hj

/-- The output block a point leaves, at the entry of row r and column d: the softmax of the blocks' row r against
    column d of the value block. -/
theorem out_at (h3 : Pay3) (h1 : Pay1) (P0 : Vec Ideal S1x1x512x64 .f32) (P1 : Vec Ideal S1x1x2048x64 .f32) (P2 : Vec Ideal S1x1x2048x64 .f32)
    (P3 : Vec Ideal S1x1x512x2048 .i32) (y : S1x1x512x64.Idx) (r : Fin 512) (d : Fin 64) (hr : (y 2).val = r.val) (hd : (y 3).val = d.val) :
    View.canon [(⟨r0_0, k0_pay1 (F := Ideal) (k0_pay2 P2) (k0_pay3 P0 P1 P3)⟩ : View.Piece (Elt Ideal) S1x1x512x64 .f32)] y
      = ∑ j : Fin 2048, softmaxRow (blkScore P0 P1 P3 r) j * P2 (ix4 (0 : Fin 1) (0 : Fin 1) j d) := by
  rw [View.canon_unit_zero hz]
  have ey : y = ix4 (0 : Fin 1) (0 : Fin 1) r d := by
    have h0 : (y 0).val < 1 := (y 0).isLt
    have h1 : (y 1).val < 1 := (y 1).isLt
    funext a; apply Fin.ext
    match a with
    | ⟨0, _⟩ => show (y 0).val = 0; omega
    | ⟨1, _⟩ => show (y 1).val = 0; omega
    | ⟨2, _⟩ => exact hr
    | ⟨3, _⟩ => exact hd
  rw [ey, h1 P2 (k0_pay3 (F := Ideal) P0 P1 P3) r d]
  exact Finset.sum_congr rfl fun j _ => by rw [h3 P0 P1 P3 r j]

/-- WHAT A POINT WRITES BACK TO THE WEIGHTS: its block of the attention weights of the argument arrays. -/
theorem flushed5_eq (h3 : Pay3) (c : Dev nD) (t : Fin cfg0.N) :
    (dats m 0 c).flushed 5 t = ((cfg0.win 5).blk t).view.read (Elt Ideal) (Gp (V m c main_arg0) (V m c main_arg1) (V m c main_arg3)) := by
  obtain ⟨b, e, g, hb, he, hg, hl⟩ := block_of t
  rw [Cert.KernelIdeal.Value.flushed5]
  unfold out0_5
  simp only [View.ld_unit_zero (S := S1x1x512x64) hz, View.ld_unit_zero (S := S1x1x2048x64) hz, View.ld_unit_zero (S := S1x1x512x2048) hz]
  funext y
  have hy0 : (y 0).val < 1 := (y 0).isLt
  have hy1 : (y 1).val < 1 := (y 1).isLt
  have hy2 : (y 2).val < 512 := (y 2).isLt
  have hy3 : (y 3).val < 2048 := (y 3).isLt
  refine (weights_at h3 (iblk m c 0 t) (iblk m c 1 t) (iblk m c 3 t) _ ⟨(y 2).val, hy2⟩ ⟨(y 3).val, hy3⟩ rfl rfl).trans ?_
  rw [blkScore_eq (iblk m c 0 t) (iblk m c 1 t) (iblk m c 3 t) (V m c main_arg0) (V m c main_arg1) (V m c main_arg3) b e
    (⟨g.val * 512 + (y 2).val, by omega⟩ : Fin 2048) ⟨(y 2).val, hy2⟩
    (fun d => read_query m c t b e g hb he hg _ d) (fun k d => read_key m c t b e hb he k d) (fun k => read_mask m c t b g hb hg _ k)]
  have ei : (((cfg0.win 5).blk t).view.emb y : S4x16x2048x2048.Idx)
      = ix4 b e (⟨g.val * 512 + (y 2).val, by omega⟩ : Fin 2048) (⟨(y 3).val, hy3⟩ : Fin 2048) := by
    funext a; apply Fin.ext
    match a with
    | ⟨0, _⟩ => show win0_5.index t (0 : Fin 4) * 1 + 1 * (y 0).val = b.val; omega
    | ⟨1, _⟩ => show win0_5.index t (1 : Fin 4) * 1 + 1 * (y 1).val = e.val; omega
    | ⟨2, _⟩ => show win0_5.index t (2 : Fin 4) * 512 + 1 * (y 2).val = g.val * 512 + (y 2).val; omega
    | ⟨3, _⟩ => show win0_5.index t (3 : Fin 4) * 2048 + 1 * (y 3).val = (y 3).val; omega
  show _ = Gp (V m c main_arg0) (V m c main_arg1) (V m c main_arg3) (((cfg0.win 5).blk t).view.emb y)
  rw [ei, Gp_ix4]
  rfl

/-- WHAT A POINT WRITES BACK TO THE OUTPUT: its block of the attention output of the argument arrays. -/
theorem flushed4_eq (h3 : Pay3) (h1 : Pay1) (c : Dev nD) (t : Fin cfg0.N) :
    (dats m 0 c).flushed 4 t = ((cfg0.win 4).blk t).view.read (Elt Ideal)
      (Go (V m c main_arg0) (V m c main_arg1) (V m c main_arg2) (V m c main_arg3)) := by
  obtain ⟨b, e, g, hb, he, hg, hl⟩ := block_of t
  obtain ⟨o0, o1, o2, o3⟩ := idx_out t
  rw [Cert.KernelIdeal.Value.flushed4]
  unfold out0_4
  simp only [View.ld_unit_zero (S := S1x1x512x64) hz, View.ld_unit_zero (S := S1x1x2048x64) hz, View.ld_unit_zero (S := S1x1x512x2048) hz]
  funext y
  have hy0 : (y 0).val < 1 := (y 0).isLt
  have hy1 : (y 1).val < 1 := (y 1).isLt
  have hy2 : (y 2).val < 512 := (y 2).isLt
  have hy3 : (y 3).val < 64 := (y 3).isLt
  refine (out_at h3 h1 (iblk m c 0 t) (iblk m c 1 t) (iblk m c 2 t) (iblk m c 3 t) _ ⟨(y 2).val, hy2⟩ ⟨(y 3).val, hy3⟩ rfl rfl).trans ?_
  rw [blkScore_eq (iblk m c 0 t) (iblk m c 1 t) (iblk m c 3 t) (V m c main_arg0) (V m c main_arg1) (V m c main_arg3) b e
    (⟨g.val * 512 + (y 2).val, by omega⟩ : Fin 2048) ⟨(y 2).val, hy2⟩
    (fun d => read_query m c t b e g hb he hg _ d) (fun k d => read_key m c t b e hb he k d) (fun k => read_mask m c t b g hb hg _ k)]
  have ei : (((cfg0.win 4).blk t).view.emb y : S4x16x2048x64.Idx)
      = ix4 b e (⟨g.val * 512 + (y 2).val, by omega⟩ : Fin 2048) (⟨(y 3).val, hy3⟩ : Fin 64) := by
    funext a; apply Fin.ext
    match a with
    | ⟨0, _⟩ => show win0_4.index t (0 : Fin 4) * 1 + 1 * (y 0).val = b.val; omega
    | ⟨1, _⟩ => show win0_4.index t (1 : Fin 4) * 1 + 1 * (y 1).val = e.val; omega
    | ⟨2, _⟩ => show win0_4.index t (2 : Fin 4) * 512 + 1 * (y 2).val = g.val * 512 + (y 2).val; omega
    | ⟨3, _⟩ => show win0_4.index t (3 : Fin 4) * 64 + 1 * (y 3).val = (y 3).val; omega
  show _ = Go (V m c main_arg0) (V m c main_arg1) (V m c main_arg2) (V m c main_arg3) (((cfg0.win 4).blk t).view.emb y)
  rw [ei, Go_ix4]
  exact Finset.sum_congr rfl fun k _ => by rw [read_value m c t b e hb he k _]; rfl

/-! ## The blocks tile the arrays -/

/-- An index of the weights array is in a point's block iff each coordinate is in the block's range on its axis. -/
theorem mem_blk5 (t : Fin cfg0.N) (i : S4x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- An index of the output array is in a point's block iff each coordinate is in the block's range on its axis. -/
theorem mem_blk4 (t : Fin cfg0.N) (i : S4x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every entry (b, e, q, k) of the weights array is in the block of the point of batch b, head e and query group q / 512. -/
theorem cover5 (i : S4x16x2048x2048.Idx) : ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, q0, q1, q2, q3⟩ := point_of ⟨(i 0).val, hi0⟩ ⟨(i 1).val, hi1⟩ ⟨(i 2).val / 512, by omega⟩
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; rw [q0]; show (i 0).val * 1 ≤ (i 0).val ∧ (i 0).val < (i 0).val * 1 + 1; omega
  | ⟨1, _⟩ => show win0_5.index t (1 : Fin 4) * 1 ≤ (i 1).val ∧ (i 1).val < win0_5.index t (1 : Fin 4) * 1 + 1; rw [q1]; show (i 1).val * 1 ≤ (i 1).val ∧ (i 1).val < (i 1).val * 1 + 1; omega
  | ⟨2, _⟩ => show win0_5.index t (2 : Fin 4) * 512 ≤ (i 2).val ∧ (i 2).val < win0_5.index t (2 : Fin 4) * 512 + 512; rw [q2]; show (i 2).val / 512 * 512 ≤ (i 2).val ∧ (i 2).val < (i 2).val / 512 * 512 + 512; omega
  | ⟨3, _⟩ => show win0_5.index t (3 : Fin 4) * 2048 ≤ (i 3).val ∧ (i 3).val < win0_5.index t (3 : Fin 4) * 2048 + 2048; rw [q3]; omega

/-- Every entry (b, e, q, d) of the output array is in the block of the point of batch b, head e and query group q / 512. -/
theorem cover4 (i : S4x16x2048x64.Idx) : ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, q0, q1, q2, q3⟩ := point_of ⟨(i 0).val, hi0⟩ ⟨(i 1).val, hi1⟩ ⟨(i 2).val / 512, by omega⟩
  obtain ⟨o0, o1, o2, o3⟩ := idx_out t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; rw [o0, q0]; show (i 0).val * 1 ≤ (i 0).val ∧ (i 0).val < (i 0).val * 1 + 1; omega
  | ⟨1, _⟩ => show win0_4.index t (1 : Fin 4) * 1 ≤ (i 1).val ∧ (i 1).val < win0_4.index t (1 : Fin 4) * 1 + 1; rw [o1, q1]; show (i 1).val * 1 ≤ (i 1).val ∧ (i 1).val < (i 1).val * 1 + 1; omega
  | ⟨2, _⟩ => show win0_4.index t (2 : Fin 4) * 512 ≤ (i 2).val ∧ (i 2).val < win0_4.index t (2 : Fin 4) * 512 + 512; rw [o2, q2]; show (i 2).val / 512 * 512 ≤ (i 2).val ∧ (i 2).val < (i 2).val / 512 * 512 + 512; omega
  | ⟨3, _⟩ => show win0_4.index t (3 : Fin 4) * 64 ≤ (i 3).val ∧ (i 3).val < win0_4.index t (3 : Fin 4) * 64 + 64; rw [o3, q3]; omega

/-! ## The arrays after the run -/

/-- THE WEIGHTS ARRAY after the run: the attention weights of the argument arrays. -/
theorem final5 (h3 : Pay3) (c : Dev nD) : (dats m 0 c).arrAt 5 cfg0.N
    = Gp (m ((c : Thread nD τ).loc main_arg0)) (m ((c : Thread nD τ).loc main_arg1)) (m ((c : Thread nD τ).loc main_arg3)) :=
  (dats m 0 c).arrAt_eq_of_cover 5 (Gp (V m c main_arg0) (V m c main_arg1) (V m c main_arg3)) (fun t _ => flushed5_eq m h3 c t) cover5

/-- THE OUTPUT ARRAY after the run: the attention output of the argument arrays. -/
theorem final4 (h3 : Pay3) (h1 : Pay1) (c : Dev nD) : (dats m 0 c).arrAt 4 cfg0.N
    = Go (m ((c : Thread nD τ).loc main_arg0)) (m ((c : Thread nD τ).loc main_arg1)) (m ((c : Thread nD τ).loc main_arg2)) (m ((c : Thread nD τ).loc main_arg3)) :=
  (dats m 0 c).arrAt_eq_of_cover 4 (Go (V m c main_arg0) (V m c main_arg1) (V m c main_arg2) (V m c main_arg3)) (fun t _ => flushed4_eq m h3 h1 c t) cover4

/-- The run, read: the two result arrays at the attention output and the attention weights of the arguments, the
    arguments unchanged. -/
theorem run (h3 : Pay3) (h1 : Pay1) : θ_run defs (onTc (τ := τ) (main (F := Ideal))) ⟨m, fun _ => 0, ρ⟩ fun r => ∀ c : Dev nD,
      r.2.mem ((c : Thread nD τ).loc main_v0_0) = Go (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Gp (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m h3 h1 c),
      (post5 m r h c).trans (final5 m h3 c),
      kept_main_arg0 m r h c,
      kept_main_arg1 m r h c,
      kept_main_arg2 m r h c,
      kept_main_arg3 m r h c⟩)
    (run_main m ρ)

end Cert.Attn.Blocks

end
-- ==== Proof.Scale.lean ====
/-
  The numbers of the scaled dot product. The reference divides a row of dot products by the square root of the
  head dimension, `sqrt 64`; the kernel multiplies it by `0.125`. On the extended reals the square root of the
  real 64 is the real 8, division by a non-zero real `y` is multiplication by `1 / y` at EVERY extended real
  (the infinities included), and the word of `0.125` denotes exactly `1 / 8`: so the two scalings are one function,
  with no finiteness assumed. The mask fill, the reductions' starting words and the rest are the same words on both
  sides and are never evaluated, except that the word of `-inf` is the bottom of the order (so a maximum
  against it is the other operand) and the word of `0.0` is zero.
-/
import Idealize.ShloMosaic.PureOps.Ideal
import Idealize.ShloMosaic.PureOps.Ideal.Laws

noncomputable section

namespace Cert.Attn.Scale

open Idealize.ShloMosaic

/-- The word of `64.0` denotes the real 64. -/
theorem ofBits_64 : Ideal.ofBits .f32 0x42800000#32 = ((64 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The word of `-inf` is the bottom of the extended reals. -/
theorem ofBits_neg_inf : Ideal.ofBits .f32 0xFF800000#32 = ⊥ := by
  simp [Ideal.ofBits, Ideal.ieee]

/-- The square root of 64 is 8. -/
theorem sqrt_64 : Real.sqrt 64 = 8 := by
  rw [show (64 : ℝ) = 8 ^ 2 by norm_num]
  exact Real.sqrt_sq (by norm_num)

/-- Dividing by `sqrt 64` is multiplying by the word of `0.125`, at every extended real. -/
theorem div_sqrt_64 (x : EReal) :
    Ideal.div x (Ideal.sqrt (Ideal.ofBits .f32 0x42800000#32)) = x * Ideal.ofBits .f32 0x3E000000#32 := by
  rw [ofBits_64, Ideal.sqrt_coe, if_neg (by norm_num), sqrt_64, Ideal.div_coe (by norm_num : (8 : ℝ) ≠ 0), ofBits_eighth]

/-- A maximum against the word of `-inf` is the other operand. -/
theorem max_neg_inf (x : EReal) : max (Ideal.ofBits .f32 0xFF800000#32) x = x := by
  rw [ofBits_neg_inf]; exact max_eq_right bot_le

/-- Adding to the word of `0.0` is the other operand. -/
theorem zero_word_add (x : EReal) : Ideal.ofBits .f32 0x00000000#32 + x = x := by
  rw [Ideal.ofBits_zero_f32, zero_add]

end Cert.Attn.Scale

end
-- ==== Proof.RefValue.lean ====
/-
  The reference program is the specification: each stage of the reference, read at one index, is the matching
  stage of scaled dot-product attention.

  At batch `b`, head `h`, query position `q` and key position `k` the reference computes, in order:
  the dot product over the 64 feature coordinates of the query row and the key row, divided by `sqrt 64`
  (which is multiplication by `1/8` at every extended real); the fill `-1e8` in its place where the mask word of
  `(b, 0, q, k)` is 1; the maximum of the row of these scores over `k`, folded from `-inf` and then taken once
  more against `-inf` (which changes nothing); the exponential of the score minus that maximum; the sum of the
  row of exponentials, started from the word of `0.0`; the quotient of the two, the attention weight; and last
  the sum over `k` of the weight times the value row `(b, h, k, d)`.

  Every lemma below is stated at explicit coordinates, so that each index the layout operations compute
  (a broadcast drops or repeats a coordinate, a reduction inserts one) is identified with the coordinate tuple
  it is, one axis at a time.
-/
import proofs.«155722_j52982716563497_2_alg».proof.Proof.Gen.ReferenceIdeal.Read
import proofs.«155722_j52982716563497_2_alg».proof.Proof.Spec
import proofs.«155722_j52982716563497_2_alg».proof.Proof.Scale
import Idealize.ShloMosaic.Lib.ValueIdx
import Idealize.ShloMosaic.PureOps.Ideal.Laws

noncomputable section

namespace Cert.Attn.RefValue

open Cert.ReferenceIdeal Cert.ReferenceIdeal.Gen Cert.ReferenceIdeal.Read Idealize.ShloMosaic Idealize.ShloMosaic.ValueIdx Cert.Attn

/-- The scaled dot product: the sum over the feature axis of query times key, divided by `sqrt 64`, is that sum
    times the word of `0.125`. -/
theorem v3_at (x0 x1 : (⟨S4x16x2048x64, .f32⟩ : BufTy).Contents (Elt Ideal))
    (b : Fin 4) (h : Fin 16) (q k : Fin 2048) :
    val_main_v3 (F := Ideal) x0 x1 (ix4 b h q k)
      = (∑ d : Fin 64, x0 (ix4 b h q d) * x1 (ix4 b h k d)) * Ideal.ofBits .f32 0x3E000000#32 := by
  rw [val_main_v3_apply, val_main_v0_apply, val_main_v2_apply, val_main_v1_apply, val_main_cst_apply,
    Ideal.hostDivf_def, Ideal.hostUnary_sqrt_def, Ideal.ofBits_def, Scale.div_sqrt_64]
  refine congrArg (· * Ideal.ofBits .f32 0x3E000000#32) (Finset.sum_congr rfl fun d _ => ?_)
  have el : lidx_main_v0 (ix4 b h q k) d = ix4 b h q d := funext fun a => Fin.ext (by
    match a with | ⟨0, _⟩ => rfl | ⟨1, _⟩ => rfl | ⟨2, _⟩ => rfl | ⟨3, _⟩ => rfl)
  have er : ridx_main_v0 (ix4 b h q k) d = ix4 b h k d := funext fun a => Fin.ext (by
    match a with | ⟨0, _⟩ => rfl | ⟨1, _⟩ => rfl | ⟨2, _⟩ => rfl | ⟨3, _⟩ => rfl)
  rw [el, er]

/-- The masked score: the mask word is read at `(b, 0, q, k)` (the mask has one head, repeated over the 16), and
    where it equals 1 the fill replaces the scaled dot product. -/
theorem v6_at (x0 x1 : (⟨S4x16x2048x64, .f32⟩ : BufTy).Contents (Elt Ideal))
    (x3 : (⟨S4x1x2048x2048, .i32⟩ : BufTy).Contents (Elt Ideal)) (b : Fin 4) (h : Fin 16) (q k : Fin 2048) :
    val_main_v6 (F := Ideal) x0 x1 x3 (ix4 b h q k) = score x0 x1 x3 b h q k := by
  rw [val_main_v6_apply, val_main_call0_v1_apply, val_main_v5_apply, val_main_v4_apply, val_main_c_apply,
    val_main_call0_v2_apply, val_main_call0_v0_apply, val_main_cst_0_apply, Ideal.ofBits_def, v3_at]
  have e : idx_main_call0_v1 (ix4 b h q k) = ix4 b (0 : Fin 1) q k := funext fun a => Fin.ext (by
    match a with | ⟨0, _⟩ => rfl | ⟨1, _⟩ => rfl | ⟨2, _⟩ => rfl | ⟨3, _⟩ => rfl)
  rw [e]
  rfl

/-- A maximum-reduction over the key axis, started from the word of `-inf`, is at `(b, h, q)` the maximum of the
    row `k ↦ y (b, h, q, k)`: the fold of `max` over the 2048 key positions. The index the reduction inserts
    coordinate `k` into is `(b, h, q, k)`. -/
theorem reduce_max_row (y : S4x16x2048x2048.Idx → EReal) (b : Fin 4) (h : Fin 16) (q : Fin 2048) :
    Host.reduce (FloatOps.maximumf (F := Ideal) (φ := .f32)) y (val_main_cst_1 (F := Ideal))
        reducesTo_S4x16x2048x2048_S4x16x2048_d3 h_S_ (ix3 b h q)
      = rowMax fun k => y (ix4 b h q k) := by
  have hR : S4x16x2048x2048.Reduces [3] S4x16x2048 := by decide
  rw [Host.reduce_eq_fold_single (FloatOps.maximumf (F := Ideal) (φ := .f32)) y (val_main_cst_1 (F := Ideal))
    reducesTo_S4x16x2048x2048_S4x16x2048_d3 hR h_S_ (ix3 b h q)]
  unfold rowMax
  exact congrArg (fun f : Fin 2048 → EReal => Finset.fold max (Ideal.ofBits .f32 0xFF800000#32) f Finset.univ)
    (funext fun k => congrArg y (funext fun a => Fin.ext (by
      match a with | ⟨0, _⟩ => rfl | ⟨1, _⟩ => rfl | ⟨2, _⟩ => rfl | ⟨3, _⟩ => rfl)))

/-- The row maximum: the reduction's result, taken once more against a broadcast `-inf`, is the maximum of the row
    of scores. -/
theorem v9_at (x0 x1 : (⟨S4x16x2048x64, .f32⟩ : BufTy).Contents (Elt Ideal))
    (x3 : (⟨S4x1x2048x2048, .i32⟩ : BufTy).Contents (Elt Ideal)) (b : Fin 4) (h : Fin 16) (q : Fin 2048) :
    val_main_v9 (F := Ideal) x0 x1 x3 (ix3 b h q) = rowMax (score x0 x1 x3 b h q) := by
  rw [val_main_v9_apply, val_main_v8_apply, val_main_cst_2_apply, Ideal.maximumf_def, Ideal.ofBits_def,
    Scale.max_neg_inf]
  unfold val_main_v7
  generalize hy : val_main_v6 (F := Ideal) x0 x1 x3 = y
  refine (reduce_max_row y b h q).trans ?_
  subst hy
  exact congrArg rowMax (funext fun k => v6_at x0 x1 x3 b h q k)

/-- The shifted exponential: the row maximum, broadcast back along the key axis, is subtracted from each score. -/
theorem v13_at (x0 x1 : (⟨S4x16x2048x64, .f32⟩ : BufTy).Contents (Elt Ideal))
    (x3 : (⟨S4x1x2048x2048, .i32⟩ : BufTy).Contents (Elt Ideal)) (b : Fin 4) (h : Fin 16) (q k : Fin 2048) :
    val_main_v13 (F := Ideal) x0 x1 x3 (ix4 b h q k) = expRow (score x0 x1 x3 b h q) k := by
  rw [val_main_v13_apply, val_main_v12_apply, val_main_v11_apply, val_main_v10_apply,
    Ideal.hostUnary_exp_def, Ideal.subf_def, v6_at]
  have e : idx_main_v10 (idx_main_v11 (ix4 b h q k)) = ix3 b h q := funext fun a => Fin.ext (by
    match a with | ⟨0, _⟩ => rfl | ⟨1, _⟩ => rfl | ⟨2, _⟩ => rfl)
  rw [e, v9_at]
  rfl

/-- The row sum of the shifted exponentials, started from the word of `0.0`. -/
theorem v14_at (x0 x1 : (⟨S4x16x2048x64, .f32⟩ : BufTy).Contents (Elt Ideal))
    (x3 : (⟨S4x1x2048x2048, .i32⟩ : BufTy).Contents (Elt Ideal)) (b : Fin 4) (h : Fin 16) (q : Fin 2048) :
    val_main_v14 (F := Ideal) x0 x1 x3 (ix3 b h q) = ∑ k : Fin 2048, expRow (score x0 x1 x3 b h q) k := by
  rw [val_main_v14_apply, val_main_cst_3_apply, Ideal.ofBits_def, Scale.zero_word_add]
  refine Finset.sum_congr rfl fun k _ => ?_
  have e : idx_main_v14 (ix3 b h q) k = ix4 b h q k := funext fun a => Fin.ext (by
    match a with | ⟨0, _⟩ => rfl | ⟨1, _⟩ => rfl | ⟨2, _⟩ => rfl | ⟨3, _⟩ => rfl)
  rw [e]
  exact v13_at x0 x1 x3 b h q k

/-- The attention weight: the shifted exponential over the row sum, broadcast back along the key axis. -/
theorem v17_at (x0 x1 : (⟨S4x16x2048x64, .f32⟩ : BufTy).Contents (Elt Ideal))
    (x3 : (⟨S4x1x2048x2048, .i32⟩ : BufTy).Contents (Elt Ideal)) (b : Fin 4) (h : Fin 16) (q k : Fin 2048) :
    val_main_v17 (F := Ideal) x0 x1 x3 (ix4 b h q k) = pAt x0 x1 x3 b h q k := by
  rw [val_main_v17_apply, val_main_v16_apply, val_main_v15_apply, Ideal.hostDivf_def, v13_at]
  have e : idx_main_v15 (idx_main_v16 (ix4 b h q k)) = ix3 b h q := funext fun a => Fin.ext (by
    match a with | ⟨0, _⟩ => rfl | ⟨1, _⟩ => rfl | ⟨2, _⟩ => rfl)
  rw [e, v14_at]
  rfl

/-- The output: the weights of row `(b, h, q)` against column `d` of the values, summed over the key axis. -/
theorem v18_at (x0 x1 x2 : (⟨S4x16x2048x64, .f32⟩ : BufTy).Contents (Elt Ideal))
    (x3 : (⟨S4x1x2048x2048, .i32⟩ : BufTy).Contents (Elt Ideal)) (b : Fin 4) (h : Fin 16) (q : Fin 2048) (d : Fin 64) :
    val_main_v18 (F := Ideal) x0 x1 x2 x3 (ix4 b h q d) = oAt x0 x1 x2 x3 b h q d := by
  rw [val_main_v18_apply]
  unfold oAt
  refine Finset.sum_congr rfl fun k _ => ?_
  have el : lidx_main_v18 (ix4 b h q d) k = ix4 b h q k := funext fun a => Fin.ext (by
    match a with | ⟨0, _⟩ => rfl | ⟨1, _⟩ => rfl | ⟨2, _⟩ => rfl | ⟨3, _⟩ => rfl)
  have er : ridx_main_v18 (ix4 b h q d) k = ix4 b h k d := funext fun a => Fin.ext (by
    match a with | ⟨0, _⟩ => rfl | ⟨1, _⟩ => rfl | ⟨2, _⟩ => rfl | ⟨3, _⟩ => rfl)
  rw [el, er, v17_at]

/-- The reference's attention weights are the specification's. -/
theorem ref_p (x0 x1 : (⟨S4x16x2048x64, .f32⟩ : BufTy).Contents (Elt Ideal)) (x3 : (⟨S4x1x2048x2048, .i32⟩ : BufTy).Contents (Elt Ideal)) :
    Cert.ReferenceIdeal.Read.val_main_v17 (F := Ideal) x0 x1 x3 = Cert.Attn.Gp x0 x1 x3 := by
  funext i
  rw [eq_ix4 i]
  exact (v17_at x0 x1 x3 (i 0) (i 1) (i 2) (i 3)).trans (Gp_ix4 x0 x1 x3 (i 0) (i 1) (i 2) (i 3)).symm

/-- The reference's output is the specification's. -/
theorem ref_o (x0 x1 x2 : (⟨S4x16x2048x64, .f32⟩ : BufTy).Contents (Elt Ideal)) (x3 : (⟨S4x1x2048x2048, .i32⟩ : BufTy).Contents (Elt Ideal)) :
    Cert.ReferenceIdeal.Read.val_main_v18 (F := Ideal) x0 x1 x2 x3 = Cert.Attn.Go x0 x1 x2 x3 := by
  funext i
  rw [eq_ix4 i]
  exact (v18_at x0 x1 x2 x3 (i 0) (i 1) (i 2) (i 3)).trans (Go_ix4 x0 x1 x2 x3 (i 0) (i 1) (i 2) (i 3)).symm

end Cert.Attn.RefValue

end
-- ==== Proof.lean ====
/-
  Scaled dot-product attention with a mask fill, tiled: the kernel against its jnp reference, over the extended reals.

  Both programs take query, key and value arrays `[4, 16, 2048, 64]` and a mask of words `[4, 1, 2048, 2048]`, and
  return the output `[4, 16, 2048, 64]` and the attention weights `[4, 16, 2048, 2048]`. For batch `b`, head `h`
  and query `q` the scores over keys `k` are the dot products of query row `q` with key rows `k`, scaled, and set
  to `-1e8` where the mask word at `(b, 0, q, k)` is 1; the weights are the softmax of that row (maximum from `-inf`,
  exponentials of the differences, their sum, the quotient); the output row is the weights against the value columns.

  The one difference between the programs that survives on the extended reals is the scaling: the reference divides
  by `sqrt 64`, the kernel multiplies by `0.125`. The square root of the real 64 is 8, and dividing an extended real by
  8 is multiplying it by `1/8`, at the infinities too — so no finiteness of the inputs is used anywhere. The kernel's
  roundings to bf16 before its two matrix products are the identity here, its products into zero blocks are the
  host's products, its lane maxima and sums are the host's reductions, and a maximum against `-inf` is the identity.

  The kernel runs over a grid of 4 × 4 × 16 points (batch, block of 512 query rows, head): at a point it computes
  512 whole rows of the weights and of the output for one head, from that head's whole key and value blocks, so each
  block of the result arrays is the block of one whole-array function (`Cert.Attn.Gp`, `Cert.Attn.Go`), and the blocks
  tile the arrays. The reference's run, read one operation at a time, is the same two functions of the arguments.
-/
import proofs.«155722_j52982716563497_2_alg».proof.Defs
import proofs.«155722_j52982716563497_2_alg».proof.Proof.Gen.Kernel
import proofs.«155722_j52982716563497_2_alg».proof.Proof.Gen.Kernel.Skeleton
import proofs.«155722_j52982716563497_2_alg».proof.Proof.Gen.Kernel.Launch
import proofs.«155722_j52982716563497_2_alg».proof.Proof.Gen.Kernel.Points
import proofs.«155722_j52982716563497_2_alg».proof.Proof.Gen.Kernel.Frame
import proofs.«155722_j52982716563497_2_alg».proof.Proof.Gen.KernelIdeal
import proofs.«155722_j52982716563497_2_alg».proof.Proof.Gen.KernelIdeal.Skeleton
import proofs.«155722_j52982716563497_2_alg».proof.Proof.Gen.KernelIdeal.Launch
import proofs.«155722_j52982716563497_2_alg».proof.Proof.Gen.KernelIdeal.Points
import proofs.«155722_j52982716563497_2_alg».proof.Proof.Gen.KernelIdeal.Frame
import proofs.«155722_j52982716563497_2_alg».proof.Proof.Gen.ReferenceIdeal
import proofs.«155722_j52982716563497_2_alg».proof.Proof.Gen.Pre_finite_inputs
import proofs.«155722_j52982716563497_2_alg».proof.Proof.Gen.KernelIdeal.Value
import proofs.«155722_j52982716563497_2_alg».proof.Proof.Gen.ReferenceIdeal.Run
import proofs.«155722_j52982716563497_2_alg».proof.Proof.Gen.ReferenceIdeal.Read
import proofs.«155722_j52982716563497_2_alg».proof.Proof.Payload
import proofs.«155722_j52982716563497_2_alg».proof.Proof.Blocks
import proofs.«155722_j52982716563497_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its two results dropped, is its frame. -/
theorem frame_ri : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote none of its operations. -/
theorem preserves : Cert.preserves_Kernel_KernelIdeal := trivial

/-- From memories that agree on the four arguments the kernel's output and weights arrays end at `Go` and `Gp` of its
    arguments (the blocks, tiled) and the reference's at `Go` and `Gp` of its own (its operations, read in order): equal. -/
theorem algebraic : Cert.algebraic_KernelIdeal_ReferenceIdeal := by
  intro m ρ m' ρ' _ hagree
  refine ⟨_, _, Cert.Attn.Blocks.run m ρ Cert.Attn.Payload.pay3_apply Cert.Attn.Payload.pay1_apply, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.Attn.RefValue.ref_o, (hagree c).1, (hagree c).2.1,
      (hagree c).2.2.1, (hagree c).2.2.2]
  · rw [Cert.ReferenceIdeal.Read.val_main_v17_eq, Cert.Attn.RefValue.ref_p, (hagree c).1, (hagree c).2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
